-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x256 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256 .f32) (main_arg4 : FVec F S64x256 .f32) (main_arg5 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S64x256 : Shape := ⟨2, ![64, 256]⟩
abbrev S64 : Shape := ⟨1, ![64]⟩
abbrev S256x64 : Shape := ⟨2, ![256, 64]⟩
abbrev S1x256 : Shape := ⟨2, ![1, 256]⟩
abbrev S1x64 : Shape := ⟨2, ![1, 64]⟩
abbrev S10000x64 : Shape := ⟨2, ![10000, 64]⟩
abbrev S200x10000 : Shape := ⟨2, ![200, 10000]⟩
abbrev S200x64 : Shape := ⟨2, ![200, 64]⟩
abbrev S200x256 : Shape := ⟨2, ![200, 256]⟩

abbrev nBuf : Space → Nat
  | .hbm => 10
  | .vmem => 10
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S64x256, .f32⟩
  | .hbm, ⟨5, _⟩ => ⟨S64, .f32⟩
  | .hbm, ⟨6, _⟩ => ⟨S256x64, .f32⟩
  | .hbm, ⟨7, _⟩ => ⟨S1x256, .f32⟩
  | .hbm, ⟨8, _⟩ => ⟨S1x64, .f32⟩
  | .hbm, ⟨9, _⟩ => ⟨S10000x64, .f32⟩
  | .local _ .vmem, ⟨0, _⟩ => ⟨S10000x256, .f32⟩
  | .local _ .vmem, ⟨1, _⟩ => ⟨S200x10000, .f32⟩
  | .local _ .vmem, ⟨2, _⟩ => ⟨S200x10000, .f32⟩
  | .local _ .vmem, ⟨3, _⟩ => ⟨S256x256, .f32⟩
  | .local _ .vmem, ⟨4, _⟩ => ⟨S1x256, .f32⟩
  | .local _ .vmem, ⟨5, _⟩ => ⟨S256x64, .f32⟩
  | .local _ .vmem, ⟨6, _⟩ => ⟨S1x64, .f32⟩
  | .local _ .vmem, ⟨7, _⟩ => ⟨S200x64, .f32⟩
  | .local _ .vmem, ⟨8, _⟩ => ⟨S200x64, .f32⟩
  | .local _ .vmem, ⟨9, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![51], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x256_S256x64_1_0 : S64x256.Transposes [1, 0] S256x64
  shapeCasts_S256_S1x256 : S256.ShapeCasts S1x256
  shapeCasts_S64_S1x64 : S64.ShapeCasts S1x64
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S200x10000_S200x10000_0_0 : ∀ a, (![0, 0] : Fin 2 → Nat) a + S200x10000.size a ≤ S200x10000.size a
  h_S200x10000 : 0 < S200x10000.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  dot_S200x256_S256x64_S200x64_1_0_0_1_n_n_wf : DotDims.WF S200x256 S256x64 S200x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x64.size a ≤ S10000x64.size a
  hwx0_6 : ∀ i : grid0.Coords, EltTy.bits .f32 = 32 ∨ (Rect.block (s := S10000x64) S200x64.size (cc0_transform_6 i) (hinb0_6 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x64_S200x64_1_0_0_1_n_n : DotDims S200x256 S256x64 S200x64 where
  lhsContracting := [1]
  rhsContracting := [0]
  lhsNonContracting := [0]
  rhsNonContracting := [1]
  lhsBatch := []
  rhsBatch := []
  wf := dot_S200x256_S256x64_S200x64_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S200x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S64x256 : Shape := ⟨2, ![64, 256]⟩
abbrev S64 : Shape := ⟨1, ![64]⟩
abbrev S1x256 : Shape := ⟨2, ![1, 256]⟩
abbrev S_ : Shape := ⟨0, ![]⟩
abbrev S256x64 : Shape := ⟨2, ![256, 64]⟩
abbrev S10000x64 : Shape := ⟨2, ![10000, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S64x256, .f32⟩
  | .hbm, ⟨5, _⟩ => ⟨S64, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S256x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  transposes_S64x256_S256x64_1_0 : S64x256.Transposes [1, 0] S256x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

class Facts : Prop extends Facts₀ where

variable [Facts]
-- ==== Proof.Spec.lean ====
/-
  The function both programs compute, index by index over the extended reals. With
    x : [10000, 256]   adj : [10000, 10000]   W1 : [256, 256]   b1 : [256]   W_mlp : [64, 256]   b_mlp : [64]
  the graph-convolution layer followed by the linear classifier is

    support[k, d] = ∑ j, x[k, j] * W1[j, d]
    hidden[r, d]  = max (∑ k, adj[r, k] * support[k, d] + b1[d]) 0
    out[r, q]     = ∑ d, hidden[r, d] * W_mlp[q, d] + b_mlp[q]

  Every sum is a finite sum in the commutative monoid of the extended reals, so its value does not depend on how
  the rows of `adj` are tiled or in which order a contraction is accumulated; no product is distributed over a
  sum anywhere, so nothing here asks the entries to be finite. The relu's bound is kept as the zero word's value,
  the same word on both sides, and is never evaluated.
-/
import Idealize.ShloMosaic.PureOps.Ideal
import Idealize.ShloMosaic.Lib.ValueIdx

noncomputable section

namespace Cert.Gcn

open Idealize.ShloMosaic Idealize.ShloMosaic.ValueIdx

/-- The literal shapes of the arguments, of the intermediate arrays and of the result. -/
abbrev Nodes : Shape := ⟨2, ![10000, 256]⟩
abbrev Adj : Shape := ⟨2, ![10000, 10000]⟩
abbrev Weights : Shape := ⟨2, ![256, 256]⟩
abbrev Bias : Shape := ⟨1, ![256]⟩
abbrev Classifier : Shape := ⟨2, ![64, 256]⟩
abbrev ClassBias : Shape := ⟨1, ![64]⟩
abbrev Logits : Shape := ⟨2, ![10000, 64]⟩

/-- `support = x · W1`: row `k` of the node features contracted with column `d` of the first weight matrix. -/
def support (x : Nodes.Idx → EReal) (w1 : Weights.Idx → EReal) (k : Fin 10000) (d : Fin 256) : EReal :=
  ∑ j : Fin 256, x (ix2 k j) * w1 (ix2 j d)

/-- One row of the hidden layer: the row `a` of the adjacency matrix contracted with column `d` of a
    [10000, 256] matrix `s`, plus the bias entry, cut off below at the relu's bound. -/
def hiddenRow (a : Fin 10000 → EReal) (s : Fin 10000 → Fin 256 → EReal) (b : Fin 256 → EReal) (d : Fin 256) : EReal :=
  max ((∑ k : Fin 10000, a k * s k d) + b d) (Ideal.ofBits .f32 0x00000000#32)

/-- One row of the result: a hidden row `h` contracted with row `q` of the classifier's weight matrix (the
    product with its transpose), plus the class bias. -/
def logitRow (h : Fin 256 → EReal) (wm : Fin 64 → Fin 256 → EReal) (bm : Fin 64 → EReal) (q : Fin 64) : EReal :=
  (∑ d : Fin 256, h d * wm q d) + bm q

/-- THE RESULT as one function of the six argument arrays: entry `(r, q)` depends on row `r` of `adj` only,
    through the hidden row it produces. -/
def G (x : Nodes.Idx → EReal) (adj : Adj.Idx → EReal) (w1 : Weights.Idx → EReal) (b1 : Bias.Idx → EReal)
    (wm : Classifier.Idx → EReal) (bm : ClassBias.Idx → EReal) : Logits.Idx → EReal := fun i =>
  logitRow (hiddenRow (fun k => adj (ix2 (i 0) k)) (support x w1) (fun d => b1 (ix1 d)))
    (fun q d => wm (ix2 q d)) (fun q => bm (ix1 q)) (i 1)

end Cert.Gcn

end
-- ==== Proof.Reference.lean ====
/-
  The reference computes `G`. Its thirteen host operations are read one at a time at an index: the two
  contractions of the graph convolution are the sums `support` and the one inside `hiddenRow`, the bias
  `b1` reaches entry `(r, d)` through its two broadcasts as `b1[d]`, the relu is the maximum with the
  broadcast zero constant, the classifier's contraction reads the transposed weights at `(d, q)`, that is
  `W_mlp[q, d]`, and the class bias reaches `(r, q)` as `b_mlp[q]`.
-/
import proofs.«166141_g10050223472989_cont_sun_c4_209_20_alg».proof.Proof.Gen.ReferenceIdeal.Read
import proofs.«166141_g10050223472989_cont_sun_c4_209_20_alg».proof.Proof.Spec

noncomputable section

namespace Cert.Gcn.Reference

open Idealize.ShloMosaic Idealize.ShloMosaic.ValueIdx Cert.ReferenceIdeal Cert.ReferenceIdeal.Read Cert.Gcn

/-- `x · W1` at `(k, d)`. -/
theorem support_eq (x0 : FVec Ideal S10000x256 .f32) (x2 : FVec Ideal S256x256 .f32) (k : Fin 10000) (d : Fin 256) :
    val_main_v0 (F := Ideal) x0 x2 (ix2 k d) = support x0 x2 k d := by
  rw [val_main_v0_apply]
  unfold support
  refine Finset.sum_congr rfl fun j _ => ?_
  have el : lidx_main_v0 (ix2 k d) j = ix2 k j := funext fun a => Fin.ext (by match a with | ⟨0, _⟩ => rfl | ⟨1, _⟩ => rfl)
  have er : ridx_main_v0 (ix2 k d) j = ix2 j d := funext fun a => Fin.ext (by match a with | ⟨0, _⟩ => rfl | ⟨1, _⟩ => rfl)
  rw [el, er]

/-- The hidden layer at `(r, d)`: row `r` of `adj` against column `d` of the support matrix, plus `b1[d]`,
    cut off below at the zero constant. -/
theorem hidden_eq (x0 : FVec Ideal S10000x256 .f32) (x1 : FVec Ideal S10000x10000 .f32) (x2 : FVec Ideal S256x256 .f32)
    (x3 : FVec Ideal S256 .f32) (r : Fin 10000) (d : Fin 256) :
    val_main_v5 (F := Ideal) x0 x1 x2 x3 (ix2 r d)
      = hiddenRow (fun k => x1 (ix2 r k)) (support x0 x2) (fun d => x3 (ix1 d)) d := by
  rw [val_main_v5_apply, val_main_v4_apply, val_main_v1_apply, val_main_v3_apply, val_main_v2_apply,
    val_main_call0_v0_apply, val_main_call0_cst_apply]
  unfold hiddenRow
  have e1 : ∀ k : Fin 10000, lidx_main_v1 (ix2 r d) k = ix2 r k := fun k => funext fun a => Fin.ext (by match a with | ⟨0, _⟩ => rfl | ⟨1, _⟩ => rfl)
  have e2 : ∀ k : Fin 10000, ridx_main_v1 (ix2 r d) k = ix2 k d := fun k => funext fun a => Fin.ext (by match a with | ⟨0, _⟩ => rfl | ⟨1, _⟩ => rfl)
  have e3 : idx_main_v2 (idx_main_v3 (ix2 r d)) = ix1 d := funext fun a => Fin.ext (by match a with | ⟨0, _⟩ => rfl)
  simp only [e1, e2, e3, support_eq]
  rfl

/-- THE REFERENCE IS `G`: the last stage of its run, as a function of the six arguments. -/
theorem result_eq (x0 : FVec Ideal S10000x256 .f32) (x1 : FVec Ideal S10000x10000 .f32) (x2 : FVec Ideal S256x256 .f32)
    (x3 : FVec Ideal S256 .f32) (x4 : FVec Ideal S64x256 .f32) (x5 : FVec Ideal S64 .f32) :
    val_main_v10 (F := Ideal) x0 x1 x2 x3 x4 x5 = G x0 x1 x2 x3 x4 x5 := by
  funext i
  obtain ⟨r, q, rfl⟩ : ∃ (r : Fin 10000) (q : Fin 64), i = ix2 r q := ⟨i 0, i 1, eq_ix2 i⟩
  rw [val_main_v10_apply, val_main_v7_apply, val_main_v9_apply, val_main_v8_apply]
  unfold G logitRow
  have e1 : ∀ k : Fin 256, lidx_main_v7 (ix2 r q) k = ix2 r k := fun k => funext fun a => Fin.ext (by match a with | ⟨0, _⟩ => rfl | ⟨1, _⟩ => rfl)
  have e2 : ∀ k : Fin 256, ridx_main_v7 (ix2 r q) k = ix2 k q := fun k => funext fun a => Fin.ext (by match a with | ⟨0, _⟩ => rfl | ⟨1, _⟩ => rfl)
  have e3 : ∀ k : Fin 256, idx_main_v6 (ix2 k q) = ix2 q k := fun k => funext fun a => Fin.ext (by match a with | ⟨0, _⟩ => rfl | ⟨1, _⟩ => rfl)
  have e4 : idx_main_v8 (idx_main_v9 (ix2 r q)) = ix1 q := funext fun a => Fin.ext (by match a with | ⟨0, _⟩ => rfl)
  simp only [e1, e2, e3, e4, hidden_eq, val_main_v6_apply]
  rfl

end Cert.Gcn.Reference

end
-- ==== Proof.Cases.lean ====
/-
  What the two control cases of the kernel body leave, as values, and what follows for every grid point.

  Point 0 (the first case) stores the scratch whole: it ends holding the first payload of the loaded node
  features and first weight matrix. Every later point (the second case) leaves the scratch as it found it and
  stores the output block whole: the second payload of the point's adjacency block, of the scratch, and of the
  three small operands. Hence, by induction on the point, the scratch holds at EVERY point what point 0 stored,
  and the output block after point `t ≥ 1` is the second payload over that one scratch value.
-/
import proofs.«166141_g10050223472989_cont_sun_c4_209_20_alg».proof.Proof.Gen.KernelIdeal.Frame
import Idealize.ShloMosaic.Lib.Pipeline.Value
import Idealize.ShloMosaic.Lib.Tactic

set_option maxRecDepth 16384

noncomputable section

namespace Cert.Gcn.Cases

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

theorem zeros : (![0, 0] : Fin 2 → Nat) = fun _ => 0 := funext fun a => by fin_cases a <;> rfl

/-- THE FIRST CASE fills the scratch with the first payload of the blocks it loaded: its one store covers the
    scratch, and its loads read whole buffers. -/
theorem scratch_first (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S200x64 .f32) (harg7 : arg7.IsWhole) (arg8 : Memref sig .tc .vmem S10000x256 .bf16) (harg8 : arg8.IsWhole) (hc0 : cond0_0 i) (hc1 : ¬cond0_1 i)
    (x0 : Vec F S10000x256 .f32) (x1 : Vec F S200x10000 .f32) (x2 : Vec F S256x256 .f32) (x3 : Vec F S1x256 .f32) (x4 : Vec F S256x64 .f32) (x5 : Vec F S1x64 .f32) :
    sout0_A_0 c i arg1 harg1 arg2 harg2 arg3 harg3 arg4 harg4 arg5 harg5 arg6 harg6 arg7 harg7 arg8 harg8 hc0 hc1 x0 x1 x2 x3 x4 x5 = k0_pay1 x0 x2 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_unit_zero zeros]
  simp only [View.readAt_eq_ld, harg1.read_unread, harg3.read_unread, View.ld_unit_zero (S := S10000x256) zeros,
    View.ld_unit_zero (S := S256x256) zeros]

/-- THE SECOND CASE fills the output block with the second payload of the blocks it loaded and of the scratch's
    contents `xs0`, which it leaves alone. -/
theorem block_later (c : Dev nD) (i : grid0.Coords) (arg1 : Memref sig .tc .vmem S10000x256 .f32) (harg1 : arg1.IsWhole) (arg2 : Memref sig .tc .vmem S200x10000 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x64 .f32) (harg5 : arg5.IsWhole) (arg6 : Memref sig .tc .vmem S1x64 .f32) (harg6 : arg6.IsWhole) (arg7 : Memref sig .tc .vmem S200x64 .f32) (harg7 : arg7.IsWhole) (arg8 : Memref sig .tc .vmem S10000x256 .bf16) (harg8 : arg8.IsWhole) (hc0 : ¬cond0_0 i) (hc1 : cond0_1 i)
    (x0 : Vec F S10000x256 .f32) (x1 : Vec F S200x10000 .f32) (x2 : Vec F S256x256 .f32) (x3 : Vec F S1x256 .f32) (x4 : Vec F S256x64 .f32) (x5 : Vec F S1x64 .f32) (xs0 : Vec F S10000x256 .bf16) :
    out0_B_6 c i arg1 harg1 arg2 harg2 arg3 harg3 arg4 harg4 arg5 harg5 arg6 harg6 arg7 harg7 arg8 harg8 hc0 hc1 x0 x1 x2 x3 x4 x5 xs0 = k0_pay2 x1 xs0 x3 x4 x5 := by
  unfold out0_B_6
  rw [View.read_writes_eq_canon _ _ _ (cover0_B_6 c i arg1 harg1 arg2 harg2 arg3 harg3 arg4 harg4 arg5 harg5 arg6 harg6 arg7 harg7 arg8 harg8 hc0 hc1 x0 x1 x2 x3 x4 x5 xs0)]
  unfold kernelRun0_B
  dsimp only
  sl_unfold_words
  rw [View.canon_unit_zero zeros]
  simp only [View.readAt_eq_ld, harg2.read_unread, harg4.read_unread, harg5.read_unread, harg6.read_unread, harg8.read_unread,
    View.ld_unit_zero (S := S200x10000) zeros, View.ld_unit_zero (S := S10000x256) zeros, View.ld_unit_zero (S := S1x256) zeros,
    View.ld_unit_zero (S := S256x64) zeros, View.ld_unit_zero (S := S1x64) zeros]

theorem first_lt : 0 < cfg0.N := by rw [show cfg0.N = 51 from N_0]; decide

/-- What point 0 stores into the scratch: the first payload of the node features' and the first weight matrix's
    blocks at point 0. -/
def filled (c : Dev nD) : Vec F S10000x256 .bf16 :=
  k0_pay1 (iblk m c 0 ⟨0, first_lt⟩) (iblk m c 2 ⟨0, first_lt⟩)

/-- THE SCRATCH IS CONSTANT over the grid: after every point it holds what point 0 stored. -/
theorem scratch_eq (c : Dev nD) : ∀ (n : ℕ) (h : n < cfg0.N), (outsAt0 m c n h).2 = filled m c
  | 0, h => by
    have h0 : (⟨0, h⟩ : Fin cfg0.N).val % 51 = 0 := rfl
    have h1 : ¬1 ≤ (⟨0, h⟩ : Fin cfg0.N).val := by dsimp only; omega
    rw [outsAt0_A m c ⟨0, h⟩ h0 h1]
    dsimp only
    unfold filled
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) ((hcond0_0 ⟨0, h⟩).mpr h0) (fun hh => h1 ((hcond0_1 ⟨0, h⟩).mp hh))
      (iblk m c 0 ⟨0, h⟩) (iblk m c 1 ⟨0, h⟩) (iblk m c 2 ⟨0, h⟩) (iblk m c 3 ⟨0, h⟩) (iblk m c 4 ⟨0, h⟩) (iblk m c 5 ⟨0, h⟩)
  | n + 1, h => by
    have hN : cfg0.N = 51 := N_0
    have h0 : ¬(⟨n + 1, h⟩ : Fin cfg0.N).val % 51 = 0 := by dsimp only; omega
    have h1 : 1 ≤ (⟨n + 1, h⟩ : Fin cfg0.N).val := by dsimp only; omega
    rw [outsAt0_B m c ⟨n + 1, h⟩ h0 h1]
    dsimp only
    unfold sout0_B_0
    exact scratch_eq c n (Nat.lt_of_succ_lt h)

/-- THE OUTPUT BLOCK after a point `t ≥ 1`: the second payload of the point's blocks over the filled scratch. -/
theorem block_eq (c : Dev nD) (t : Fin cfg0.N) (h1 : 1 ≤ t.val) :
    (outsAt0 m c t.val t.isLt).1 = k0_pay2 (iblk m c 1 t) (filled m c) (iblk m c 3 t) (iblk m c 4 t) (iblk m c 5 t) := by
  have hN : cfg0.N = 51 := N_0
  have h0 : ¬t.val % 51 = 0 := by have := t.isLt; omega
  rw [outsAt0_B m c t h0 h1]
  dsimp only
  refine (block_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1)
    (iblk m c 0 t) (iblk m c 1 t) (iblk m c 2 t) (iblk m c 3 t) (iblk m c 4 t) (iblk m c 5 t) (outsAt0 m c (t.val - 1) (Nat.lt_of_le_of_lt (Nat.sub_le _ _) t.isLt)).2).trans ?_
  rw [scratch_eq m c (t.val - 1) _]

end Cert.Gcn.Cases

end
-- ==== Proof.Products.lean ====
/-
  The kernel's three matrix products, each read at an entry of its result. A product of an [M, K] by a [K, N]
  matrix into a zero accumulator has at `(p, q)` the value `∑ k, l[p, k] * r[k, q]`; the three instances are
  the support matrix `x · W1`, a 200-row block of `adj` against the support matrix, and a 200-row block of the
  hidden layer against the transposed classifier weights.
-/
import proofs.«166141_g10050223472989_cont_sun_c4_209_20_alg».proof.Proof.Gen.KernelIdeal
import Idealize.ShloMosaic.PureOps.Ideal.Laws
import Idealize.ShloMosaic.Lib.ValueIdx

noncomputable section

namespace Cert.Gcn.Products

open Idealize.ShloMosaic Idealize.ShloMosaic.ValueIdx Cert.KernelIdeal

/-! ### `x · W1`: [10000, 256] by [256, 256] -/

theorem support_lhs0 (i : S10000x256.Idx) (q : dot_S10000x256_S256x256_S10000x256_1_0_0_1_n_n.contr.Idx) : (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem support_lhs1 (i : S10000x256.Idx) (q : dot_S10000x256_S256x256_S10000x256_1_0_0_1_n_n.contr.Idx) : (dot_S10000x256_S256x256_S10000x256_1_0_0_1_n_n.lhsIdx i q 1).val = (q ⟨0, by decide⟩).val :=
  dot_S10000x256_S256x256_S10000x256_1_0_0_1_n_n.lhsIdx_val_of_single rfl i q
theorem support_rhs0 (i : S10000x256.Idx) (q : dot_S10000x256_S256x256_S10000x256_1_0_0_1_n_n.contr.Idx) : (dot_S10000x256_S256x256_S10000x256_1_0_0_1_n_n.rhsIdx i q 0).val = (q ⟨0, by decide⟩).val :=
  dot_S10000x256_S256x256_S10000x256_1_0_0_1_n_n.rhsIdx_val_of_single rfl i q
theorem support_rhs1 (i : S10000x256.Idx) (q : dot_S10000x256_S256x256_S10000x256_1_0_0_1_n_n.contr.Idx) : (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- Entry `(p, q)` of the product into a zero accumulator is the sum over the contracted coordinate `k` of
    `l[p, k] * r[k, q]`: the accumulator's zero is the sum's neutral element, and the one contracted axis is
    re-indexed by its coordinate. -/
theorem support_apply (l : FVec Ideal S10000x256 .f32) (r : FVec Ideal S256x256 .f32) (p : Fin 10000) (q : Fin 256) :
    matmul dot_S10000x256_S256x256_S10000x256_1_0_0_1_n_n none l r (constant S10000x256 .f32 0x00000000#32) (ix2 p q) = ∑ k : Fin 256, l (ix2 p k) * r (ix2 k q) := by
  simp only [matmul]
  rw [Ideal.matmul_constant_zero_apply, ← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 p q) ((contrEquiv1 dot_S10000x256_S256x256_S10000x256_1_0_0_1_n_n 256 rfl rfl).symm k) = ix2 p k := funext fun a => Fin.ext (by
    match a with
    | ⟨0, _⟩ => exact support_lhs0 _ _
    | ⟨1, _⟩ => exact (support_lhs1 _ _).trans hk)
  have er : dot_S10000x256_S256x256_S10000x256_1_0_0_1_n_n.rhsIdx (ix2 p q) ((contrEquiv1 dot_S10000x256_S256x256_S10000x256_1_0_0_1_n_n 256 rfl rfl).symm k) = ix2 k q := funext fun a => Fin.ext (by
    match a with
    | ⟨0, _⟩ => exact (support_rhs0 _ _).trans hk
    | ⟨1, _⟩ => exact support_rhs1 _ _)
  rw [el, er]

/-! ### a row block of `adj` by the support matrix: [200, 10000] by [10000, 256] -/

theorem aggregate_lhs0 (i : S200x256.Idx) (q : dot_S200x10000_S10000x256_S200x256_1_0_0_1_n_n.contr.Idx) : (dot_S200x10000_S10000x256_S200x256_1_0_0_1_n_n.lhsIdx i q 0).val = (i 0).val := by
  unfold DotDims.lhsIdx
  rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
  rfl
theorem aggregate_lhs1 (i : S200x256.Idx) (q : dot_S200x10000_S10000x256_S200x256_1_0_0_1_n_n.contr.Idx) : (dot_S200x10000_S10000x256_S200x256_1_0_0_1_n_n.lhsIdx i q 1).val = (q ⟨0, by decide⟩).val :=
  dot_S200x10000_S10000x256_S200x256_1_0_0_1_n_n.lhsIdx_val_of_single rfl i q
theorem aggregate_rhs0 (i : S200x256.Idx) (q : dot_S200x10000_S10000x256_S200x256_1_0_0_1_n_n.contr.Idx) : (dot_S200x10000_S10000x256_S200x256_1_0_0_1_n_n.rhsIdx i q 0).val = (q ⟨0, by decide⟩).val :=
  dot_S200x10000_S10000x256_S200x256_1_0_0_1_n_n.rhsIdx_val_of_single rfl i q
theorem aggregate_rhs1 (i : S200x256.Idx) (q : dot_S200x10000_S10000x256_S200x256_1_0_0_1_n_n.contr.Idx) : (dot_S200x10000_S10000x256_S200x256_1_0_0_1_n_n.rhsIdx i q 1).val = (i 1).val := by
  unfold DotDims.rhsIdx
  rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
  rfl

/-- Entry `(p, q)` of the product into a zero accumulator is the sum over the contracted coordinate `k` of
    `l[p, k] * r[k, q]`: the accumulator's zero is the sum's neutral element, and the one contracted axis is
    re-indexed by its coordinate. -/
theorem aggregate_apply (l : FVec Ideal S200x10000 .bf16) (r : FVec Ideal S10000x256 .bf16) (p : Fin 200) (q : Fin 256) :
    matmul dot_S200x10000_S10000x256_S200x256_1_0_0_1_n_n none l r (constant S200x256 .f32 0x00000000#32) (ix2 p q) = ∑ k : Fin 10000, l (ix2 p k) * r (ix2 k q) := by
  simp only [matmul]
  rw [Ideal.matmul_constant_zero_apply, ← Equiv.sum_comp (contrEquiv1 dot_S200x10000_S10000x256_S200x256_1_0_0_1_n_n 10000 rfl rfl).symm]
  refine Finset.sum_congr rfl fun k _ => ?_
  have hk := contrEquiv1_symm_val dot_S200x10000_S10000x256_S200x256_1_0_0_1_n_n 10000 rfl rfl k
  have el : dot_S200x10000_S10000x256_S200x256_1_0_0_1_n_n.lhsIdx (ix2 p q) ((contrEquiv1 dot_S200x10000_S10000x256_S200x256_1_0_0_1_n_n 10000 rfl rfl).symm k) = ix2 p k := funext fun a => Fin.ext (by
    match a with
    | ⟨0, _⟩ => exact aggregate_lhs0 _ _
    | ⟨1, _⟩ => exact (aggregate_lhs1 _ _).trans hk)
  have er : dot_S200x10000_S10000x256_S200x256_1_0_0_1_n_n.rhsIdx (ix2 p q) ((contrEquiv1 dot_S200x10000_S10000x256_S200x256_1_0_0_1_n_n 10000 rfl rfl).symm k) = ix2 k q := funext fun a => Fin.ext (by
    match a with
    | ⟨0, _⟩ => exact (aggregate_rhs0 _ _).trans hk
    | ⟨1, _⟩ => exact aggregate_rhs1 _ _)
  rw [el, er]

/-! ### a row block of the hidden layer by the transposed classifier weights: [200, 256] by [256, 64] -/

theorem classify_lhs0 (i : S200x64.Idx) (q : dot_S200x256_S256x64_S200x64_1_0_0_1_n_n.contr.Idx) : (dot_S200x256_S256x64_S200x64_1_0_0_1_n_n.lhsIdx i q 0).val = (i 0).val := by
  unfold DotDims.lhsIdx
  rw [dif_neg (show ¬(0 : Fin S200x256.rank) ∈ dot_S200x256_S256x64_S200x64_1_0_0_1_n_n.lhsBatch by decide), dif_pos (show (0 : Fin S200x256.rank) ∈ dot_S200x256_S256x64_S200x64_1_0_0_1_n_n.lhsNonContracting by decide)]
  rfl
theorem classify_lhs1 (i : S200x64.Idx) (q : dot_S200x256_S256x64_S200x64_1_0_0_1_n_n.contr.Idx) : (dot_S200x256_S256x64_S200x64_1_0_0_1_n_n.lhsIdx i q 1).val = (q ⟨0, by decide⟩).val :=
  dot_S200x256_S256x64_S200x64_1_0_0_1_n_n.lhsIdx_val_of_single rfl i q
theorem classify_rhs0 (i : S200x64.Idx) (q : dot_S200x256_S256x64_S200x64_1_0_0_1_n_n.contr.Idx) : (dot_S200x256_S256x64_S200x64_1_0_0_1_n_n.rhsIdx i q 0).val = (q ⟨0, by decide⟩).val :=
  dot_S200x256_S256x64_S200x64_1_0_0_1_n_n.rhsIdx_val_of_single rfl i q
theorem classify_rhs1 (i : S200x64.Idx) (q : dot_S200x256_S256x64_S200x64_1_0_0_1_n_n.contr.Idx) : (dot_S200x256_S256x64_S200x64_1_0_0_1_n_n.rhsIdx i q 1).val = (i 1).val := by
  unfold DotDims.rhsIdx
  rw [dif_neg (show ¬(1 : Fin S256x64.rank) ∈ dot_S200x256_S256x64_S200x64_1_0_0_1_n_n.rhsBatch by decide), dif_pos (show (1 : Fin S256x64.rank) ∈ dot_S200x256_S256x64_S200x64_1_0_0_1_n_n.rhsNonContracting by decide)]
  rfl

/-- Entry `(p, q)` of the product into a zero accumulator is the sum over the contracted coordinate `k` of
    `l[p, k] * r[k, q]`: the accumulator's zero is the sum's neutral element, and the one contracted axis is
    re-indexed by its coordinate. -/
theorem classify_apply (l : FVec Ideal S200x256 .f32) (r : FVec Ideal S256x64 .f32) (p : Fin 200) (q : Fin 64) :
    matmul dot_S200x256_S256x64_S200x64_1_0_0_1_n_n none l r (constant S200x64 .f32 0x00000000#32) (ix2 p q) = ∑ k : Fin 256, l (ix2 p k) * r (ix2 k q) := by
  simp only [matmul]
  rw [Ideal.matmul_constant_zero_apply, ← Equiv.sum_comp (contrEquiv1 dot_S200x256_S256x64_S200x64_1_0_0_1_n_n 256 rfl rfl).symm]
  refine Finset.sum_congr rfl fun k _ => ?_
  have hk := contrEquiv1_symm_val dot_S200x256_S256x64_S200x64_1_0_0_1_n_n 256 rfl rfl k
  have el : dot_S200x256_S256x64_S200x64_1_0_0_1_n_n.lhsIdx (ix2 p q) ((contrEquiv1 dot_S200x256_S256x64_S200x64_1_0_0_1_n_n 256 rfl rfl).symm k) = ix2 p k := funext fun a => Fin.ext (by
    match a with
    | ⟨0, _⟩ => exact classify_lhs0 _ _
    | ⟨1, _⟩ => exact (classify_lhs1 _ _).trans hk)
  have er : dot_S200x256_S256x64_S200x64_1_0_0_1_n_n.rhsIdx (ix2 p q) ((contrEquiv1 dot_S200x256_S256x64_S200x64_1_0_0_1_n_n 256 rfl rfl).symm k) = ix2 k q := funext fun a => Fin.ext (by
    match a with
    | ⟨0, _⟩ => exact (classify_rhs0 _ _).trans hk
    | ⟨1, _⟩ => exact classify_rhs1 _ _)
  rw [el, er]

end Cert.Gcn.Products

end
-- ==== Proof.Payloads.lean ====
/-
  The kernel body's two stored values, read at an entry, at the ideal instance.

  At the first grid point the body stores `x · W1` into the scratch: the support matrix (the change of float
  format on the way into the scratch is the identity on extended reals).

  At every later point it stores one 200-row block of the result. Entry `(p, q)` of that block is the
  classifier applied to the hidden row that row `p` of the loaded block of `adj` produces from the scratch's
  contents: the aggregation `∑ k, a[p, k] * s[k, d]`, plus the bias row broadcast down the block, cut off at the
  zero splat, contracted with the [256, 64] operand, plus the class-bias row broadcast down the block.
-/
import proofs.«166141_g10050223472989_cont_sun_c4_209_20_alg».proof.Proof.Gen.KernelIdeal.Skeleton
import proofs.«166141_g10050223472989_cont_sun_c4_209_20_alg».proof.Proof.Products
import proofs.«166141_g10050223472989_cont_sun_c4_209_20_alg».proof.Proof.Spec
import Idealize.ShloMosaic.Lib.Pipeline.Value
import Idealize.ShloMosaic.Lib.ValueLayout

noncomputable section

namespace Cert.Gcn.Payloads

open Idealize.ShloMosaic Idealize.ShloMosaic.ValueIdx Cert.KernelIdeal Cert.KernelIdeal.Gen Cert.Gcn

/-- What the first grid point stores into the scratch, at `(k, d)`: the support matrix's entry. -/
theorem scratch_apply (x : FVec Ideal S10000x256 .f32) (w : FVec Ideal S256x256 .f32) (k : Fin 10000) (d : Fin 256) :
    k0_pay1 (F := Ideal) x w (ix2 k d) = support x w k d := by
  unfold k0_pay1
  rw [shapeCast_self]
  exact Products.support_apply x w k d

/-- What a later grid point stores into the output block, at `(p, q)`: the classifier row of the hidden row that
    row `p` of the adjacency block `a` makes of the scratch `s`. The one-row operands `b` and `cb` are read at their
    only row; the [256, 64] operand `wt` is read at `(d, q)`. -/
theorem block_apply (a : FVec Ideal S200x10000 .f32) (s : FVec Ideal S10000x256 .bf16) (b : FVec Ideal S1x256 .f32)
    (wt : FVec Ideal S256x64 .f32) (cb : FVec Ideal S1x64 .f32) (p : Fin 200) (q : Fin 64) :
    k0_pay2 (F := Ideal) a s b wt cb (ix2 p q)
      = logitRow (hiddenRow (fun k => a (ix2 p k)) (fun k d => s (ix2 k d)) (fun d => b (ix2 (0 : Fin 1) d)))
          (fun q d => wt (ix2 d q)) (fun q => cb (ix2 (0 : Fin 1) q)) q := by
  unfold k0_pay2
  simp only [shapeCast_self]
  unfold logitRow hiddenRow
  rw [addf_apply, Products.classify_apply, broadcastTo_1b_ab_apply]
  refine congrArg (· + cb (ix2 (0 : Fin 1) q)) (Finset.sum_congr rfl fun d _ => ?_)
  rw [maximumf_apply, addf_apply, Products.aggregate_apply, broadcastTo_1b_ab_apply]
  rfl

end Cert.Gcn.Payloads

end
-- ==== Proof.Result.lean ====
/-
  From blocks to the array. The grid has 51 points. Point 0 only fills the scratch; point `t ≥ 1` reads rows
  `200 (t - 1) … 200 (t - 1) + 199` of `adj`, the whole of every other operand, and writes rows
  `200 (t - 1) … 200 (t - 1) + 199` of the result. The block index `max (t - 1) 0` of the result's window sends
  points 0 and 1 to the same block, and the pipeline writes a block back only when the next point's block differs
  (or at the last point): so the points that write back are exactly `t ≥ 1`, and what each writes is its block of
  the one function `G` of the six arguments. Row `r` of the result is in the block of point `r / 200 + 1`, so
  those blocks cover the array, and the array ends holding `G`.

  The operands the host prepares before the call are read through their preparation: the bias rows are the
  [256] and [64] arguments given a leading unit axis, the [256, 64] operand is the transposed classifier matrix.
-/
import proofs.«166141_g10050223472989_cont_sun_c4_209_20_alg».proof.Proof.Gen.KernelIdeal.Value
import proofs.«166141_g10050223472989_cont_sun_c4_209_20_alg».proof.Proof.Cases
import proofs.«166141_g10050223472989_cont_sun_c4_209_20_alg».proof.Proof.Payloads
import Idealize.ShloMosaic.Lib.StableHlo.Run
import Idealize.ShloMosaic.Lib.ValueLayout

set_option maxRecDepth 16384

noncomputable section

namespace Cert.Gcn.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Gcn

variable (m : (ℓ : Loc nD τ sig) → Buf (Elt Ideal) ℓ) (ρ : Dev nD → PrngReg)

/-! ## The schedule, decided once over the 51 points -/

/-- Every window but two stays on block (0, 0); the adjacency's and the result's windows are on row block
    `t - 1` (truncated: block 0 at point 0). -/
theorem index_facts : ∀ t : Fin cfg0.N,
    win0_0.index t (0 : Fin 2) = 0 ∧ win0_0.index t (1 : Fin 2) = 0
    ∧ win0_1.index t (0 : Fin 2) = t.val - 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val - 1 ∧ win0_6.index t (1 : Fin 2) = 0 :=
  (by decide +kernel : ∀ t : Fin grid0.N, _)

/-- The result's block is written back after every point but the first. -/
theorem flush_iff : ∀ t : Fin cfg0.N, (cfg0.win 6).flush t = true ↔ 1 ≤ t.val :=
  (by decide +kernel : ∀ t : Fin grid0.N, win0_6.flush t = true ↔ 1 ≤ t.val)

/-! ## Each operand's block, as entries of the arguments -/

/-- The node features' block is the whole [10000, 256] argument at every point. -/
theorem nodes_block (c : Dev nD) (t : Fin cfg0.N) (k : Fin 10000) (j : Fin 256) :
    (iblk m c 0 t : FVec Ideal S10000x256 .f32) (ix2 k j) = ((m ((c : Thread nD τ).loc main_arg0)) : S10000x256.Idx → EReal) (ix2 k j) := by
  obtain ⟨e00, e01, e10, e11, e20, e21, e30, e31, e40, e41, e50, e51, e60, e61⟩ := index_facts t
  unfold iblk
  rw [View.read_apply]
  show V m c main_arg0 _ = _
  rw [V_main_arg0]
  congr 1
  funext a
  apply Fin.ext
  match a with
  | ⟨0, _⟩ => show win0_0.index t 0 * 10000 + 1 * k.val = k.val; rw [e00]; omega
  | ⟨1, _⟩ => show win0_0.index t 1 * 256 + 1 * j.val = j.val; rw [e01]; omega

/-- The adjacency's block at point `t` is rows `200 (t - 1) + p` of the [10000, 10000] argument. -/
theorem adj_block (c : Dev nD) (t : Fin cfg0.N) (p : Fin 200) (k : Fin 10000) (r : Fin 10000)
    (hr : r.val = (t.val - 1) * 200 + p.val) :
    (iblk m c 1 t : FVec Ideal S200x10000 .f32) (ix2 p k) = ((m ((c : Thread nD τ).loc main_arg1)) : S10000x10000.Idx → EReal) (ix2 r k) := by
  obtain ⟨e00, e01, e10, e11, e20, e21, e30, e31, e40, e41, e50, e51, e60, e61⟩ := index_facts t
  unfold iblk
  rw [View.read_apply]
  show V m c main_arg1 _ = _
  rw [V_main_arg1]
  congr 1
  funext a
  apply Fin.ext
  match a with
  | ⟨0, _⟩ => show win0_1.index t 0 * 200 + 1 * p.val = r.val; rw [e10, hr]; omega
  | ⟨1, _⟩ => show win0_1.index t 1 * 10000 + 1 * k.val = k.val; rw [e11]; omega

/-- The first weight matrix's block is the whole [256, 256] argument at every point. -/
theorem weights_block (c : Dev nD) (t : Fin cfg0.N) (j : Fin 256) (d : Fin 256) :
    (iblk m c 2 t : FVec Ideal S256x256 .f32) (ix2 j d) = ((m ((c : Thread nD τ).loc main_arg2)) : S256x256.Idx → EReal) (ix2 j d) := by
  obtain ⟨e00, e01, e10, e11, e20, e21, e30, e31, e40, e41, e50, e51, e60, e61⟩ := index_facts t
  unfold iblk
  rw [View.read_apply]
  show V m c main_arg2 _ = _
  rw [V_main_arg2]
  congr 1
  funext a
  apply Fin.ext
  match a with
  | ⟨0, _⟩ => show win0_2.index t 0 * 256 + 1 * j.val = j.val; rw [e20]; omega
  | ⟨1, _⟩ => show win0_2.index t 1 * 256 + 1 * d.val = d.val; rw [e21]; omega

/-- The [1, 256] operand the region finds is the bias argument given a leading unit axis, -/
theorem bias_array (c : Dev nD) :
    (V m c main_v1 : S1x256.Idx → EReal) = shapeCast S1x256 (m ((c : Thread nD τ).loc main_arg3)) shapeCasts_S256_S1x256 := by
  dsimp only [V, hostOps0]; after_results <;> rfl

/-- so its block's one row at `d` is `b1[d]`. -/
theorem bias_block (c : Dev nD) (t : Fin cfg0.N) (d : Fin 256) :
    (iblk m c 3 t : FVec Ideal S1x256 .f32) (ix2 (0 : Fin 1) d) = ((m ((c : Thread nD τ).loc main_arg3)) : S256.Idx → EReal) (ix1 d) := by
  obtain ⟨e00, e01, e10, e11, e20, e21, e30, e31, e40, e41, e50, e51, e60, e61⟩ := index_facts t
  have e : ((cfg0.win 3).blk t).view.emb (ix2 (0 : Fin 1) d) = ix2 (0 : Fin 1) d := by
    funext a
    apply Fin.ext
    match a with
    | ⟨0, _⟩ => show win0_3.index t 0 * 1 + 1 * 0 = 0; rw [e30]
    | ⟨1, _⟩ => show win0_3.index t 1 * 256 + 1 * d.val = d.val; rw [e31]; omega
  unfold iblk
  rw [View.read_apply]
  show V m c main_v1 _ = _
  rw [e, bias_array, shapeCast_a_1a_apply]

/-- The [256, 64] operand the region finds is the classifier's weight matrix transposed, -/
theorem classifier_array (c : Dev nD) :
    (V m c main_v0 : S256x64.Idx → EReal) = transpose S256x64 [1, 0] (m ((c : Thread nD τ).loc main_arg4)) transposes_S64x256_S256x64_1_0 := by
  dsimp only [V, hostOps0]; after_results <;> rfl

/-- so its block at `(d, q)` is `W_mlp[q, d]`. -/
theorem classifier_block (c : Dev nD) (t : Fin cfg0.N) (d : Fin 256) (q : Fin 64) :
    (iblk m c 4 t : FVec Ideal S256x64 .f32) (ix2 d q) = ((m ((c : Thread nD τ).loc main_arg4)) : S64x256.Idx → EReal) (ix2 q d) := by
  obtain ⟨e00, e01, e10, e11, e20, e21, e30, e31, e40, e41, e50, e51, e60, e61⟩ := index_facts t
  have e : ((cfg0.win 4).blk t).view.emb (ix2 d q) = ix2 d q := by
    funext a
    apply Fin.ext
    match a with
    | ⟨0, _⟩ => show win0_4.index t 0 * 256 + 1 * d.val = d.val; rw [e40]; omega
    | ⟨1, _⟩ => show win0_4.index t 1 * 64 + 1 * q.val = q.val; rw [e41]; omega
  unfold iblk
  rw [View.read_apply]
  show V m c main_v0 _ = _
  rw [e, classifier_array, transpose_ix2_apply]

/-- The [1, 64] operand the region finds is the class-bias argument given a leading unit axis, -/
theorem class_bias_array (c : Dev nD) :
    (V m c main_v2 : S1x64.Idx → EReal) = shapeCast S1x64 (m ((c : Thread nD τ).loc main_arg5)) shapeCasts_S64_S1x64 := by
  dsimp only [V, hostOps0]; after_results <;> rfl

/-- so its block's one row at `q` is `b_mlp[q]`. -/
theorem class_bias_block (c : Dev nD) (t : Fin cfg0.N) (q : Fin 64) :
    (iblk m c 5 t : FVec Ideal S1x64 .f32) (ix2 (0 : Fin 1) q) = ((m ((c : Thread nD τ).loc main_arg5)) : S64.Idx → EReal) (ix1 q) := by
  obtain ⟨e00, e01, e10, e11, e20, e21, e30, e31, e40, e41, e50, e51, e60, e61⟩ := index_facts t
  have e : ((cfg0.win 5).blk t).view.emb (ix2 (0 : Fin 1) q) = ix2 (0 : Fin 1) q := by
    funext a
    apply Fin.ext
    match a with
    | ⟨0, _⟩ => show win0_5.index t 0 * 1 + 1 * 0 = 0; rw [e50]
    | ⟨1, _⟩ => show win0_5.index t 1 * 64 + 1 * q.val = q.val; rw [e51]; omega
  unfold iblk
  rw [View.read_apply]
  show V m c main_v2 _ = _
  rw [e, class_bias_array, shapeCast_a_1a_apply]

/-! ## The scratch and the output block, as functions of the arguments -/

/-- The scratch holds the support matrix `x · W1` of the arguments. -/
theorem filled_apply (c : Dev nD) (k : Fin 10000) (d : Fin 256) :
    (Cases.filled m c : FVec Ideal S10000x256 .bf16) (ix2 k d) = support (m ((c : Thread nD τ).loc main_arg0)) (m ((c : Thread nD τ).loc main_arg2)) k d := by
  unfold Cases.filled
  refine (Payloads.scratch_apply (iblk m c 0 ⟨0, Cases.first_lt⟩) (iblk m c 2 ⟨0, Cases.first_lt⟩) k d).trans ?_
  unfold support
  refine Finset.sum_congr rfl fun j _ => ?_
  rw [nodes_block m c ⟨0, Cases.first_lt⟩ k j, weights_block m c ⟨0, Cases.first_lt⟩ j d]

/-- After a point `t ≥ 1` the output's staging buffer holds, at `(p, q)`, entry `(200 (t - 1) + p, q)` of `G`. -/
theorem block_entry (c : Dev nD) (t : Fin cfg0.N) (h1 : 1 ≤ t.val) (p : Fin 200) (q : Fin 64) (r : Fin 10000)
    (hr : r.val = (t.val - 1) * 200 + p.val) :
    ((outsAt0 m c t.val t.isLt).1 : FVec Ideal S200x64 .f32) (ix2 p q) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 r q) := by
  rw [Cases.block_eq m c t h1]
  refine (Payloads.block_apply (iblk m c 1 t) (Cases.filled m c) (iblk m c 3 t) (iblk m c 4 t) (iblk m c 5 t) p q).trans ?_
  have ea : (fun k : Fin 10000 => (iblk m c 1 t : FVec Ideal S200x10000 .f32) (ix2 p k))
      = fun k => ((m ((c : Thread nD τ).loc main_arg1)) : S10000x10000.Idx → EReal) (ix2 r k) := funext fun k => adj_block m c t p k r hr
  have es : (fun (k : Fin 10000) (d : Fin 256) => (Cases.filled m c : FVec Ideal S10000x256 .bf16) (ix2 k d))
      = support (m ((c : Thread nD τ).loc main_arg0)) (m ((c : Thread nD τ).loc main_arg2)) := funext fun k => funext fun d => filled_apply m c k d
  have eb : (fun d : Fin 256 => (iblk m c 3 t : FVec Ideal S1x256 .f32) (ix2 (0 : Fin 1) d))
      = fun d => ((m ((c : Thread nD τ).loc main_arg3)) : S256.Idx → EReal) (ix1 d) := funext fun d => bias_block m c t d
  have ew : (fun (q : Fin 64) (d : Fin 256) => (iblk m c 4 t : FVec Ideal S256x64 .f32) (ix2 d q))
      = fun q d => ((m ((c : Thread nD τ).loc main_arg4)) : S64x256.Idx → EReal) (ix2 q d) := funext fun q => funext fun d => classifier_block m c t d q
  have ec : (fun q : Fin 64 => (iblk m c 5 t : FVec Ideal S1x64 .f32) (ix2 (0 : Fin 1) q))
      = fun q => ((m ((c : Thread nD τ).loc main_arg5)) : S64.Idx → EReal) (ix1 q) := funext fun q => class_bias_block m c t q
  rw [ea, es, eb, ew, ec]
  rfl

/-- The same at any index `j` of the block and any index `i` of the array on the same row and column. -/
theorem block_at (c : Dev nD) (t : Fin cfg0.N) (h1 : 1 ≤ t.val) (j : S200x64.Idx) (i : S10000x64.Idx)
    (h0 : (i 0).val = (t.val - 1) * 200 + (j 0).val) (hq : (i 1).val = (j 1).val) :
    ((outsAt0 m c t.val t.isLt).1 : FVec Ideal S200x64 .f32) j = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) i := by
  obtain ⟨p, q, rfl⟩ : ∃ (p : Fin 200) (q : Fin 64), j = ix2 p q := ⟨j 0, j 1, eq_ix2 j⟩
  obtain ⟨r, q', rfl⟩ : ∃ (r : Fin 10000) (q' : Fin 64), i = ix2 r q' := ⟨i 0, i 1, eq_ix2 i⟩
  obtain rfl : q' = q := Fin.ext hq
  exact block_entry m c t h1 p q' r h0

/-! ## What is written back, the cover, the array -/

/-- WHAT A FLUSHING POINT WRITES BACK is its block of `G` of the arguments. -/
theorem flushed_eq (c : Dev nD) (t : Fin cfg0.N) (hf : (cfg0.win 6).flush t = true) :
    (dats m 0 c).flushed 6 t = ((cfg0.win 6).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h1 : 1 ≤ t.val := (flush_iff t).mp hf
  obtain ⟨e00, e01, e10, e11, e20, e21, e30, e31, e40, e41, e50, e51, e60, e61⟩ := index_facts t
  rw [flushed6]
  funext j
  show (outsAt0 m c t.val t.isLt).1 j = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (((cfg0.win 6).blk t).view.emb j)
  refine block_at m c t h1 j _ ?_ ?_
  · show win0_6.index t 0 * 200 + 1 * (j 0).val = (t.val - 1) * 200 + (j 0).val
    rw [e60]; omega
  · show win0_6.index t 1 * 64 + 1 * (j 1).val = (j 1).val
    rw [e61]; omega

/-- An index of the result is in point `t`'s block iff each coordinate is in the block's range on its axis. -/
theorem mem_block (t : Fin cfg0.N) (i : S10000x64.Idx) :
    i ∈ ((cfg0.win 6).blk t).view.set ↔ ∀ a : Fin 2, win0_6.index t a * S200x64.size a ≤ (i a).val ∧ (i a).val < win0_6.index t a * S200x64.size a + S200x64.size a := by
  show i ∈ ((View.whole main_v3).slice (win0_6.rect t)).set ↔ _
  rw [View.set_slice_whole, Rect.mem_set_unit]
  exact Iff.rfl

/-- THE COVER: row `r` of the result is written back by point `r / 200 + 1`. -/
theorem covered (i : S10000x64.Idx) :
    ∃ t : Fin cfg0.N, (cfg0.win 6).flush t = true ∧ i ∈ ((cfg0.win 6).blk t).view.set := by
  have hi0 : (i 0).val < 10000 := (i 0).isLt
  have hi1 : (i 1).val < 64 := (i 1).isLt
  have hN : cfg0.N = 51 := N_0
  obtain ⟨t, ht⟩ : ∃ t : Fin cfg0.N, t.val = (i 0).val / 200 + 1 := ⟨⟨(i 0).val / 200 + 1, by rw [hN]; omega⟩, rfl⟩
  obtain ⟨e00, e01, e10, e11, e20, e21, e30, e31, e40, e41, e50, e51, e60, e61⟩ := index_facts t
  refine ⟨t, (flush_iff t).mpr (by omega), ?_⟩
  rw [mem_block]
  intro a
  match a with
  | ⟨0, _⟩ =>
    show win0_6.index t 0 * 200 ≤ (i 0).val ∧ (i 0).val < win0_6.index t 0 * 200 + 200
    rw [e60]; omega
  | ⟨1, _⟩ =>
    show win0_6.index t 1 * 64 ≤ (i 1).val ∧ (i 1).val < win0_6.index t 1 * 64 + 64
    rw [e61]; omega

/-- THE ARRAY after the run is `G` of the arguments. -/
theorem final (c : Dev nD) : (dats m 0 c).arrAt 6 cfg0.N = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (dats m 0 c).arrAt_eq_of_cover 6 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (flushed_eq m c) covered

/-- THE KERNEL'S RUN, read: the result array at `G` of the arguments, the arguments unchanged. -/
theorem run : θ_run defs (onTc (τ := τ) (main (F := Ideal))) ⟨m, fun _ => 0, ρ⟩ fun r => ∀ c : Dev nD,
      r.2.mem ((c : Thread nD τ).loc main_v3) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Gcn.Result

end
-- ==== Proof.lean ====
/-
  The kernel computes, in 51 grid points, the graph-convolution layer followed by the linear classifier:
  point 0 fills a scratch with the support matrix `x · W1`; point `t ≥ 1` turns rows `200 (t - 1) …` of the
  adjacency matrix into the same rows of the result, `relu (adj · support + b1) · W_mlpᵀ + b_mlp`. The
  reference computes the same expression with whole-array contractions. Over the extended reals both results
  are the one function `G` of the six arguments (Proof/Spec.lean): every contraction is a finite sum whose
  value does not depend on how its rows are tiled, the changes of float format are the identity, and no
  algebraic law beyond that is used, so the inputs' finiteness is never needed.

  The three frame claims are the generated frame runs (the reference's is its generated run with the result
  forgotten); the idealization rewrote nothing, so the second-to-last claim is `True`; the last sets the
  kernel's run (Proof/Result.lean) beside the reference's (Proof/Reference.lean), both posted at `G`.
-/
import proofs.«166141_g10050223472989_cont_sun_c4_209_20_alg».proof.Defs
import proofs.«166141_g10050223472989_cont_sun_c4_209_20_alg».proof.Proof.Gen.Kernel
import proofs.«166141_g10050223472989_cont_sun_c4_209_20_alg».proof.Proof.Gen.Kernel.Frame
import proofs.«166141_g10050223472989_cont_sun_c4_209_20_alg».proof.Proof.Gen.KernelIdeal
import proofs.«166141_g10050223472989_cont_sun_c4_209_20_alg».proof.Proof.Gen.KernelIdeal.Frame
import proofs.«166141_g10050223472989_cont_sun_c4_209_20_alg».proof.Proof.Gen.KernelIdeal.Value
import proofs.«166141_g10050223472989_cont_sun_c4_209_20_alg».proof.Proof.Gen.ReferenceIdeal
import proofs.«166141_g10050223472989_cont_sun_c4_209_20_alg».proof.Proof.Gen.ReferenceIdeal.Run
import proofs.«166141_g10050223472989_cont_sun_c4_209_20_alg».proof.Proof.Gen.ReferenceIdeal.Read
import proofs.«166141_g10050223472989_cont_sun_c4_209_20_alg».proof.Proof.Gen.Pre_finite_inputs
import proofs.«166141_g10050223472989_cont_sun_c4_209_20_alg».proof.Proof.Reference
import proofs.«166141_g10050223472989_cont_sun_c4_209_20_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result array ends at `G` of its arguments and the reference's at the last
    stage of its run, which is `G` of arguments that agree with the kernel's. -/
theorem algebraic : Cert.algebraic_KernelIdeal_ReferenceIdeal := by
  intro m ρ m' ρ' _ hagree
  refine ⟨_, Cert.Gcn.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Gcn.Reference.result_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
